-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x8 : Shape := ⟨3, ![16, 4096, 8]⟩
abbrev S8 : Shape := ⟨1, ![8]⟩
abbrev S2048x8 : Shape := ⟨2, ![2048, 8]⟩
abbrev S2048 : Shape := ⟨1, ![2048]⟩
abbrev S8x2048 : Shape := ⟨2, ![8, 2048]⟩
abbrev S_ : Shape := ⟨0, ![]⟩

class Facts : Prop where
  bcast_S_S16x4096x8 : S_.BroadcastsInDim S16x4096x8 (![] : Fin 0 → Fin S16x4096x8.rank)
  reducesTo_S16x4096x8_S_d0_1_2 : S16x4096x8.ReducesTo [0, 1, 2] S_
  h_S_ : 0 < S_.numel
  bcast_S_S8 : S_.BroadcastsInDim S8 (![] : Fin 0 → Fin S8.rank)
  reducesTo_S8_S_d0 : S8.ReducesTo [0] S_
  bcast_S_S2048x8 : S_.BroadcastsInDim S2048x8 (![] : Fin 0 → Fin S2048x8.rank)
  reducesTo_S2048x8_S_d0_1 : S2048x8.ReducesTo [0, 1] S_
  bcast_S_S2048 : S_.BroadcastsInDim S2048 (![] : Fin 0 → Fin S2048.rank)
  reducesTo_S2048_S_d0 : S2048.ReducesTo [0] S_
  bcast_S_S8x2048 : S_.BroadcastsInDim S8x2048 (![] : Fin 0 → Fin S8x2048.rank)
  reducesTo_S8x2048_S_d0_1 : S8x2048.ReducesTo [0, 1] S_

variable [Facts]

def fn_part1 {F : FTy → Type} [FloatOps F] (main_arg4 : FVec F S8x2048 .f32) (main_arg5 : FVec F S8 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S8x2048 .f32 := Host.absf main_arg4
  let main_cst_6 : FVec F S_ .f32 := constant S_ .f32 0x7F800000#32
  let main_v20 : FVec F S8x2048 .f32 := broadcastInDim S8x2048 ![] bcast_S_S8x2048 main_cst_6
  let main_v21 : IVec S8x2048 1 := cmpf .olt main_v19 main_v20
  let main_c_7 : IVec S_ 1 := constantI S_ 1 1#1
  let main_v22 : IVec S_ 1 := (fun x v => Host.reduce IntOp.andi x v reducesTo_S8x2048_S_d0_1 h_S_) main_v21 main_c_7
  let main_v23 : IVec S_ 1 := andi main_v18 main_v22
  let main_v24 : FVec F S8 .f32 := Host.absf main_arg5
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  main_v28

def fn {F : FTy → Type} [FloatOps F] (main_arg0 : FVec F S16x4096x8 .f32) (main_arg1 : FVec F S8 .f32) (main_arg2 : FVec F S2048x8 .f32) (main_arg3 : FVec F S2048 .f32) (main_arg4 : FVec F S8x2048 .f32) (main_arg5 : FVec F S8 .f32) : IVec S_ 1 :=
  let main_v0 : FVec F S16x4096x8 .f32 := Host.absf main_arg0
  let main_cst : FVec F S_ .f32 := constant S_ .f32 0x7F800000#32
  let main_v1 : FVec F S16x4096x8 .f32 := broadcastInDim S16x4096x8 ![] bcast_S_S16x4096x8 main_cst
  let main_v2 : IVec S16x4096x8 1 := cmpf .olt main_v0 main_v1
  let main_c : IVec S_ 1 := constantI S_ 1 1#1
  let main_v3 : IVec S_ 1 := (fun x v => Host.reduce IntOp.andi x v reducesTo_S16x4096x8_S_d0_1_2 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S2048x8 .f32 := Host.absf main_arg2
  let main_cst_2 : FVec F S_ .f32 := constant S_ .f32 0x7F800000#32
  let main_v10 : FVec F S2048x8 .f32 := broadcastInDim S2048x8 ![] bcast_S_S2048x8 main_cst_2
  let main_v11 : IVec S2048x8 1 := cmpf .olt main_v9 main_v10
  let main_c_3 : IVec S_ 1 := constantI S_ 1 1#1
  let main_v12 : IVec S_ 1 := (fun x v => Host.reduce IntOp.andi x v reducesTo_S2048x8_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_v13 main_v16
-- ==== Kernel.lean ====
abbrev S16x4096x8 : Shape := ⟨3, ![16, 4096, 8]⟩
abbrev S8 : Shape := ⟨1, ![8]⟩
abbrev S2048x8 : Shape := ⟨2, ![2048, 8]⟩
abbrev S2048 : Shape := ⟨1, ![2048]⟩
abbrev S8x2048 : Shape := ⟨2, ![8, 2048]⟩
abbrev S65536x8 : Shape := ⟨2, ![65536, 8]⟩
abbrev S1x8 : Shape := ⟨2, ![1, 8]⟩
abbrev S1x2048 : Shape := ⟨2, ![1, 2048]⟩
abbrev S2048x2048 : Shape := ⟨2, ![2048, 2048]⟩

abbrev nBuf : Space → Nat
  | .hbm => 15
  | .vmem => 9
  | .smem => 0
  | _ => 0

abbrev bufTy : (tb : Table) → Fin (tcTables nBuf tb) → BufTy
  | .hbm, ⟨0, _⟩ => ⟨S16x4096x8, .f32⟩
  | .hbm, ⟨1, _⟩ => ⟨S8, .f32⟩
  | .hbm, ⟨2, _⟩ => ⟨S2048x8, .f32⟩
  | .hbm, ⟨3, _⟩ => ⟨S2048, .f32⟩
  | .hbm, ⟨4, _⟩ => ⟨S8x2048, .f32⟩
  | .hbm, ⟨5, _⟩ => ⟨S8, .f32⟩
  | .hbm, ⟨6, _⟩ => ⟨S65536x8, .f32⟩
  | .hbm, ⟨7, _⟩ => ⟨S8, .f32⟩
  | .hbm, ⟨8, _⟩ => ⟨S1x8, .f32⟩
  | .hbm, ⟨9, _⟩ => ⟨S8x2048, .f32⟩
  | .hbm, ⟨10, _⟩ => ⟨S2048x8, .f32⟩
  | .hbm, ⟨11, _⟩ => ⟨S1x2048, .f32⟩
  | .hbm, ⟨12, _⟩ => ⟨S1x8, .f32⟩
  | .hbm, ⟨13, _⟩ => ⟨S65536x8, .f32⟩
  | .hbm, ⟨14, _⟩ => ⟨S16x4096x8, .f32⟩
  | .local _ .vmem, ⟨0, _⟩ => ⟨S2048x8, .f32⟩
  | .local _ .vmem, ⟨1, _⟩ => ⟨S2048x8, .f32⟩
  | .local _ .vmem, ⟨2, _⟩ => ⟨S1x8, .f32⟩
  | .local _ .vmem, ⟨3, _⟩ => ⟨S8x2048, .f32⟩
  | .local _ .vmem, ⟨4, _⟩ => ⟨S1x2048, .f32⟩
  | .local _ .vmem, ⟨5, _⟩ => ⟨S2048x8, .f32⟩
  | .local _ .vmem, ⟨6, _⟩ => ⟨S1x8, .f32⟩
  | .local _ .vmem, ⟨7, _⟩ => ⟨S2048x8, .f32⟩
  | .local _ .vmem, ⟨8, _⟩ => ⟨S2048x8, .f32⟩
  | _, _ => ⟨S16x4096x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S16x4096x8_S65536x8 : S16x4096x8.ShapeCasts S65536x8
  shapeCasts_S8_S1x8 : S8.ShapeCasts S1x8
  transposes_S2048x8_S8x2048_1_0 : S2048x8.Transposes [1, 0] S8x2048
  transposes_S8x2048_S2048x8_1_0 : S8x2048.Transposes [1, 0] S2048x8
  shapeCasts_S2048_S1x2048 : S2048.ShapeCasts S1x2048
  inb_S2048x8_S2048x8_0_0 : ∀ a, (![0, 0] : Fin 2 → Nat) a + S2048x8.size a ≤ S2048x8.size a
  h_S2048x8 : 0 < S2048x8.numel
  shapeCasts_S2048x8_S2048x8 : S2048x8.ShapeCasts S2048x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S2048x8 : S1x8.Broadcasts S2048x8
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S2048x2048 : S1x2048.Broadcasts S2048x2048
  shapeCasts_S65536x8_S16x4096x8 : S65536x8.ShapeCasts S16x4096x8
  dot_S2048x8_S8x2048_S2048x2048_1_0_0_1_n_n_wf : DotDims.WF S2048x8 S8x2048 S2048x2048 [1] [0] [0] [1] [] []
  dot_S2048x2048_S2048x8_S2048x8_1_0_0_1_n_n_wf : DotDims.WF S2048x2048 S2048x8 S2048x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x8.size a ≤ S65536x8.size a
  hwx0_0 : ∀ i : grid0.Coords, EltTy.bits .f32 = 32 ∨ (Rect.block (s := S65536x8) S2048x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8.size a ≤ S1x8.size a
  hwx0_1 : ∀ i : grid0.Coords, EltTy.bits .f32 = 32 ∨ (Rect.block (s := S1x8) S1x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x2048.size a ≤ S8x2048.size a
  hwx0_2 : ∀ i : grid0.Coords, EltTy.bits .f32 = 32 ∨ (Rect.block (s := S8x2048) S8x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x8.size a ≤ S2048x8.size a
  hwx0_4 : ∀ i : grid0.Coords, EltTy.bits .f32 = 32 ∨ (Rect.block (s := S2048x8) S2048x8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x8.size a ≤ S1x8.size a
  hwx0_5 : ∀ i : grid0.Coords, EltTy.bits .f32 = 32 ∨ (Rect.block (s := S1x8) S1x8.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x8.size a ≤ S65536x8.size a
  hwx0_6 : ∀ i : grid0.Coords, EltTy.bits .f32 = 32 ∨ (Rect.block (s := S65536x8) S2048x8.size (cc0_transform_6 i) (hinb0_6 i)).WholeWords (EltTy.packing .f32)

variable [Facts₀]

def dot_S2048x8_S8x2048_S2048x2048_1_0_0_1_n_n : DotDims S2048x8 S8x2048 S2048x2048 where
  lhsContracting := [1]
  rhsContracting := [0]
  lhsNonContracting := [0]
  rhsNonContracting := [1]
  lhsBatch := []
  rhsBatch := []
  wf := dot_S2048x8_S8x2048_S2048x2048_1_0_0_1_n_n_wf
def dot_S2048x2048_S2048x8_S2048x8_1_0_0_1_n_n : DotDims S2048x2048 S2048x8 S2048x8 where
  lhsContracting := [1]
  rhsContracting := [0]
  lhsNonContracting := [0]
  rhsNonContracting := [1]
  lhsBatch := []
  rhsBatch := []
  wf := dot_S2048x2048_S2048x8_S2048x8_1_0_0_1_n_n_wf

abbrev win0_0 : Pipeline.Window sig grid0 :=
  Pipeline.Window.ofSpec (Memref.whole main_v0) S2048x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S8x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S2048x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S2048x8.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x4096x8 : Shape := ⟨3, ![16, 4096, 8]⟩
abbrev S8 : Shape := ⟨1, ![8]⟩
abbrev S2048x8 : Shape := ⟨2, ![2048, 8]⟩
abbrev S2048 : Shape := ⟨1, ![2048]⟩
abbrev S8x2048 : Shape := ⟨2, ![8, 2048]⟩
abbrev S1x1x8 : Shape := ⟨3, ![1, 1, 8]⟩
abbrev S16x4096x2048 : Shape := ⟨3, ![16, 4096, 2048]⟩
abbrev S1x1x2048 : Shape := ⟨3, ![1, 1, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S16x4096x8, .f32⟩
  | .hbm, ⟨1, _⟩ => ⟨S8, .f32⟩
  | .hbm, ⟨2, _⟩ => ⟨S2048x8, .f32⟩
  | .hbm, ⟨3, _⟩ => ⟨S2048, .f32⟩
  | .hbm, ⟨4, _⟩ => ⟨S8x2048, .f32⟩
  | .hbm, ⟨5, _⟩ => ⟨S8, .f32⟩
  | .hbm, ⟨6, _⟩ => ⟨S16x4096x8, .f32⟩
  | .hbm, ⟨7, _⟩ => ⟨S8, .f32⟩
  | .hbm, ⟨8, _⟩ => ⟨S1x1x8, .f32⟩
  | .hbm, ⟨9, _⟩ => ⟨S16x4096x8, .f32⟩
  | .hbm, ⟨10, _⟩ => ⟨S16x4096x8, .f32⟩
  | .hbm, ⟨11, _⟩ => ⟨S16x4096x2048, .f32⟩
  | .hbm, ⟨12, _⟩ => ⟨S1x1x2048, .f32⟩
  | .hbm, ⟨13, _⟩ => ⟨S16x4096x2048, .f32⟩
  | .hbm, ⟨14, _⟩ => ⟨S16x4096x2048, .f32⟩
  | .hbm, ⟨15, _⟩ => ⟨S_, .f32⟩
  | .hbm, ⟨16, _⟩ => ⟨S16x4096x2048, .f32⟩
  | .hbm, ⟨17, _⟩ => ⟨S16x4096x2048, .f32⟩
  | .hbm, ⟨18, _⟩ => ⟨S16x4096x8, .f32⟩
  | .hbm, ⟨19, _⟩ => ⟨S1x1x8, .f32⟩
  | .hbm, ⟨20, _⟩ => ⟨S16x4096x8, .f32⟩
  | .hbm, ⟨21, _⟩ => ⟨S16x4096x8, .f32⟩
  | _, _ => ⟨S16x4096x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_cst : Ref sig .tc := ⟨.hbm, 15, rfl⟩
abbrev main_call0_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S8_S1x1x8_2 : S8.BroadcastsInDim S1x1x8 (![2] : Fin 1 → Fin S1x1x8.rank)
  bcast_S1x1x8_S16x4096x8_0_1_2 : S1x1x8.BroadcastsInDim S16x4096x8 (![0, 1, 2] : Fin 3 → Fin S16x4096x8.rank)
  bcast_S2048_S1x1x2048_2 : S2048.BroadcastsInDim S1x1x2048 (![2] : Fin 1 → Fin S1x1x2048.rank)
  bcast_S1x1x2048_S16x4096x2048_0_1_2 : S1x1x2048.BroadcastsInDim S16x4096x2048 (![0, 1, 2] : Fin 3 → Fin S16x4096x2048.rank)
  bcast_S_S16x4096x2048 : S_.BroadcastsInDim S16x4096x2048 (![] : Fin 0 → Fin S16x4096x2048.rank)
  dot_S16x4096x8_S2048x8_S16x4096x2048_2_1_01_0_n_n_wf : DotDims.WF S16x4096x8 S2048x8 S16x4096x2048 [2] [1] [0, 1] [0] [] []
  dot_S16x4096x2048_S8x2048_S16x4096x8_2_1_01_0_n_n_wf : DotDims.WF S16x4096x2048 S8x2048 S16x4096x8 [2] [1] [0, 1] [0] [] []

variable [Facts₀]

def dot_S16x4096x8_S2048x8_S16x4096x2048_2_1_01_0_n_n : DotDims S16x4096x8 S2048x8 S16x4096x2048 where
  lhsContracting := [2]
  rhsContracting := [1]
  lhsNonContracting := [0, 1]
  rhsNonContracting := [0]
  lhsBatch := []
  rhsBatch := []
  wf := dot_S16x4096x8_S2048x8_S16x4096x2048_2_1_01_0_n_n_wf
def dot_S16x4096x2048_S8x2048_S16x4096x8_2_1_01_0_n_n : DotDims S16x4096x2048 S8x2048 S16x4096x8 where
  lhsContracting := [2]
  rhsContracting := [1]
  lhsNonContracting := [0, 1]
  rhsNonContracting := [0]
  lhsBatch := []
  rhsBatch := []
  wf := dot_S16x4096x2048_S8x2048_S16x4096x8_2_1_01_0_n_n_wf

class Facts : Prop extends Facts₀ where

variable [Facts]
-- ==== Proof.LibContractSum.lean ====
/-
  A matrix product with ONE contracted axis, into the zero accumulator, read at an output index on the extended reals.

  The product's entry at `j` is the sum, over the contraction index, of the left operand at `lhsIdx j ·` times the right
  operand at `rhsIdx j ·`. When one axis of extent `K` is contracted, the contraction index is its one coordinate, so the
  entry is a sum over `k : Fin K` of the operands at whatever indices the dimension record names there — given by the
  caller as two families `li`, `ri` with the two equations that say so. The statement does not depend on which axes of
  the operands are contracted: row by column, column by column, or any other single-axis contraction.
-/
import Idealize.ShloMosaic.PureOps.Ideal.Laws
import Idealize.ShloMosaic.Lib.ValueIdx

namespace Cert.LibContractSum

open Idealize.ShloMosaic Idealize.ShloMosaic.ValueIdx

/-- A `tpu.matmul` into the f32 zero splat, one contracted axis of extent `K`: at output index `j` it is
    `∑ k : Fin K, lhs (li k) * rhs (ri k)`, where `li k` / `ri k` are the operand indices the dimension record gives at
    `j` and contraction coordinate `k` (`hl`, `hr`). -/
theorem matmul_zero_sum {sl sr so : Shape} {φ₁ φ₂ : FTy} (D : DotDims sl sr so) (prec : Option ContractPrecision) (K : Nat)
    (hrank : D.contr.rank = 1) (hsize : D.contr.size ⟨0, by omega⟩ = K)
    (lhs : FVec Ideal sl φ₁) (rhs : FVec Ideal sr φ₂) (j : so.Idx) (li : Fin K → sl.Idx) (ri : Fin K → sr.Idx)
    (hl : ∀ k, D.lhsIdx j ((contrEquiv1 D K hrank hsize).symm k) = li k)
    (hr : ∀ k, D.rhsIdx j ((contrEquiv1 D K hrank hsize).symm k) = ri k) :
    FloatOps.matmul D prec lhs rhs (constant so .f32 0x00000000#32) j = ∑ k : Fin K, lhs (li k) * rhs (ri k) := by
  rw [Ideal.matmul_constant_zero_apply, ← Equiv.sum_comp (contrEquiv1 D K hrank hsize).symm]
  exact Finset.sum_congr rfl fun k _ => by rw [hl k, hr k]

end Cert.LibContractSum
-- ==== Proof.LibMatmul2D.lean ====
/-
  A 2-D matrix product into the zero accumulator, read at an output entry on the extended reals, in the three ways a
  single axis of each operand can be contracted:
    * rows by columns   — [M, K] against [K, N], left axis 1 with right axis 0:   ∑ k, lhs (m, k) * rhs (k, n);
    * columns by columns — [K, M] against [K, N], left axis 0 with right axis 0:  ∑ k, lhs (k, m) * rhs (k, n);
    * columns by rows    — [K, M] against [N, K], left axis 0 with right axis 1:  ∑ k, lhs (k, m) * rhs (n, k).
  In each the result is [M, N]: the left operand's free axis first, the right operand's free axis second. The
  dimension record is the one built from the literal axis lists; its well-formedness proof is a parameter, so the
  statements apply to any record with those lists whatever proves it well formed. Over any extents M, K, N.
-/
import Idealize.ShloMosaic.PureOps.Ideal.Laws
import Idealize.ShloMosaic.Lib.ValueIdx
import proofs.«124010_j65481071404952_2_alg».proof.Proof.LibContractSum

namespace Cert.LibMatmul2D

open Idealize.ShloMosaic Idealize.ShloMosaic.ValueIdx

variable {M K N : ℕ} {φ₁ φ₂ : FTy}

/-- Rows by columns: entry (m, n) is the sum over k of lhs (m, k) * rhs (k, n). -/
theorem rows_cols
    (wf : DotDims.WF (⟨2, ![M, K]⟩ : Shape) (⟨2, ![K, N]⟩ : Shape) (⟨2, ![M, N]⟩ : Shape)
      ([1] : List (Fin 2)) ([0] : List (Fin 2)) ([0] : List (Fin 2)) ([1] : List (Fin 2)) [] [])
    (prec : Option ContractPrecision) (lhs : FVec Ideal (⟨2, ![M, K]⟩ : Shape) φ₁) (rhs : FVec Ideal (⟨2, ![K, N]⟩ : Shape) φ₂)
    (m : Fin M) (n : Fin N) :
    FloatOps.matmul (⟨[1], [0], [0], [1], [], [], wf⟩ : DotDims (⟨2, ![M, K]⟩ : Shape) (⟨2, ![K, N]⟩ : Shape) (⟨2, ![M, N]⟩ : Shape))
        prec lhs rhs (constant (⟨2, ![M, N]⟩ : Shape) .f32 0x00000000#32) (ix2 m n)
      = ∑ k : Fin K, lhs (ix2 m k) * rhs (ix2 k n) := by
  refine Cert.LibContractSum.matmul_zero_sum _ prec K rfl rfl lhs rhs (ix2 m n) (fun k => ix2 m k) (fun k => ix2 k n)
    (fun k => ?_) (fun k => ?_)
  · funext a; apply Fin.ext
    match a with
    | ⟨0, _⟩ =>
      unfold DotDims.lhsIdx
      rw [dif_neg, dif_pos]
      case hc => exact List.mem_singleton.mpr (Fin.ext rfl)
      case hnc => exact List.not_mem_nil
      rfl
    | ⟨1, _⟩ => exact (DotDims.lhsIdx_val_of_single _ rfl _ _).trans (contrEquiv1_symm_val _ K rfl rfl k)
  · funext a; apply Fin.ext
    match a with
    | ⟨0, _⟩ => exact (DotDims.rhsIdx_val_of_single _ rfl _ _).trans (contrEquiv1_symm_val _ K rfl rfl k)
    | ⟨1, _⟩ =>
      unfold DotDims.rhsIdx
      rw [dif_neg, dif_pos]
      case hc => exact List.mem_singleton.mpr (Fin.ext rfl)
      case hnc => exact List.not_mem_nil
      rfl

/-- Columns by columns: entry (m, n) is the sum over k of lhs (k, m) * rhs (k, n). -/
theorem cols_cols
    (wf : DotDims.WF (⟨2, ![K, M]⟩ : Shape) (⟨2, ![K, N]⟩ : Shape) (⟨2, ![M, N]⟩ : Shape)
      ([0] : List (Fin 2)) ([0] : List (Fin 2)) ([1] : List (Fin 2)) ([1] : List (Fin 2)) [] [])
    (prec : Option ContractPrecision) (lhs : FVec Ideal (⟨2, ![K, M]⟩ : Shape) φ₁) (rhs : FVec Ideal (⟨2, ![K, N]⟩ : Shape) φ₂)
    (m : Fin M) (n : Fin N) :
    FloatOps.matmul (⟨[0], [0], [1], [1], [], [], wf⟩ : DotDims (⟨2, ![K, M]⟩ : Shape) (⟨2, ![K, N]⟩ : Shape) (⟨2, ![M, N]⟩ : Shape))
        prec lhs rhs (constant (⟨2, ![M, N]⟩ : Shape) .f32 0x00000000#32) (ix2 m n)
      = ∑ k : Fin K, lhs (ix2 k m) * rhs (ix2 k n) := by
  refine Cert.LibContractSum.matmul_zero_sum _ prec K rfl rfl lhs rhs (ix2 m n) (fun k => ix2 k m) (fun k => ix2 k n)
    (fun k => ?_) (fun k => ?_)
  · funext a; apply Fin.ext
    match a with
    | ⟨0, _⟩ => exact (DotDims.lhsIdx_val_of_single _ rfl _ _).trans (contrEquiv1_symm_val _ K rfl rfl k)
    | ⟨1, _⟩ =>
      unfold DotDims.lhsIdx
      rw [dif_neg, dif_pos]
      case hc => exact List.mem_singleton.mpr (Fin.ext rfl)
      case hnc => exact List.not_mem_nil
      rfl
  · funext a; apply Fin.ext
    match a with
    | ⟨0, _⟩ => exact (DotDims.rhsIdx_val_of_single _ rfl _ _).trans (contrEquiv1_symm_val _ K rfl rfl k)
    | ⟨1, _⟩ =>
      unfold DotDims.rhsIdx
      rw [dif_neg, dif_pos]
      case hc => exact List.mem_singleton.mpr (Fin.ext rfl)
      case hnc => exact List.not_mem_nil
      rfl

/-- Columns by rows: entry (m, n) is the sum over k of lhs (k, m) * rhs (n, k). -/
theorem cols_rows
    (wf : DotDims.WF (⟨2, ![K, M]⟩ : Shape) (⟨2, ![N, K]⟩ : Shape) (⟨2, ![M, N]⟩ : Shape)
      ([0] : List (Fin 2)) ([1] : List (Fin 2)) ([1] : List (Fin 2)) ([0] : List (Fin 2)) [] [])
    (prec : Option ContractPrecision) (lhs : FVec Ideal (⟨2, ![K, M]⟩ : Shape) φ₁) (rhs : FVec Ideal (⟨2, ![N, K]⟩ : Shape) φ₂)
    (m : Fin M) (n : Fin N) :
    FloatOps.matmul (⟨[0], [1], [1], [0], [], [], wf⟩ : DotDims (⟨2, ![K, M]⟩ : Shape) (⟨2, ![N, K]⟩ : Shape) (⟨2, ![M, N]⟩ : Shape))
        prec lhs rhs (constant (⟨2, ![M, N]⟩ : Shape) .f32 0x00000000#32) (ix2 m n)
      = ∑ k : Fin K, lhs (ix2 k m) * rhs (ix2 n k) := by
  refine Cert.LibContractSum.matmul_zero_sum _ prec K rfl rfl lhs rhs (ix2 m n) (fun k => ix2 k m) (fun k => ix2 n k)
    (fun k => ?_) (fun k => ?_)
  · funext a; apply Fin.ext
    match a with
    | ⟨0, _⟩ => exact (DotDims.lhsIdx_val_of_single _ rfl _ _).trans (contrEquiv1_symm_val _ K rfl rfl k)
    | ⟨1, _⟩ =>
      unfold DotDims.lhsIdx
      rw [dif_neg, dif_pos]
      case hc => exact List.mem_singleton.mpr (Fin.ext rfl)
      case hnc => exact List.not_mem_nil
      rfl
  · funext a; apply Fin.ext
    match a with
    | ⟨0, _⟩ =>
      unfold DotDims.rhsIdx
      rw [dif_neg, dif_pos]
      case hc => exact List.mem_singleton.mpr (Fin.ext rfl)
      case hnc => exact List.not_mem_nil
      rfl
    | ⟨1, _⟩ => exact (DotDims.rhsIdx_val_of_single _ rfl _ _).trans (contrEquiv1_symm_val _ K rfl rfl k)

end Cert.LibMatmul2D
-- ==== Proof.Perceptron.lean ====
/-
  The function both programs compute, on the extended reals.

  A row of inputs `x_0 … x_7` is first encoded as `q_k = cos x_k * c_k` (the `c_k` are fixed per column), then sent
  through a two-layer perceptron: the hidden unit `f` (of 2048) is `h_f = max (∑ k, q_k * W1 (k, f) + B1 f) 0`, and the
  output `j` (of 8) is `∑ f, h_f * W2 (f, j) + B2 j`. Every row is treated alone, so the function of a matrix with any
  number `R` of rows is given entry by entry (`entry`), and a block of rows of a taller matrix has the entries of the
  taller matrix at those rows (`entry_congr`). The biases and the column factors are kept as one-row matrices, the
  form in which a kernel holds them.

  `out` is the same function of the arguments as they are given: `x` as a [16, 4096, 8] array whose first two axes
  number the rows, the angles `θ` whose cosines are the column factors, the first layer's weights stored
  [hidden, input] and the second layer's [output, hidden], the biases as vectors. `entry_eq_out` says that a matrix
  form whose operands are these arguments re-laid has, at row `(b, s)`, the entries of `out` there.

  No law of arithmetic is used: the two forms are the same sums of the same products in the same order.
-/
import Idealize.ShloMosaic.PureOps.Ideal.Laws
import Idealize.ShloMosaic.Lib.ValueIdx

noncomputable section

namespace Cert.Perceptron

open Idealize.ShloMosaic Idealize.ShloMosaic.ValueIdx

/-- Hidden unit `f` of row `r`: the encoded row against column `f` of the first layer, plus the bias, cut off below at zero. -/
def hidden {R : ℕ} (X : (⟨2, ![R, 8]⟩ : Shape).Idx → EReal) (C : (⟨2, ![1, 8]⟩ : Shape).Idx → EReal)
    (W1 : (⟨2, ![8, 2048]⟩ : Shape).Idx → EReal) (B1 : (⟨2, ![1, 2048]⟩ : Shape).Idx → EReal)
    (r : Fin R) (f : Fin 2048) : EReal :=
  max ((∑ k : Fin 8, Ideal.cos (X (ix2 r k)) * C (ix2 (0 : Fin 1) k) * W1 (ix2 k f)) + B1 (ix2 (0 : Fin 1) f))
    (Ideal.ofBits .f32 0x00000000#32)

/-- Output `q` of row `r`: the hidden row against column `q` of the second layer, plus the bias. -/
def entry {R : ℕ} (X : (⟨2, ![R, 8]⟩ : Shape).Idx → EReal) (C : (⟨2, ![1, 8]⟩ : Shape).Idx → EReal)
    (W1 : (⟨2, ![8, 2048]⟩ : Shape).Idx → EReal) (B1 : (⟨2, ![1, 2048]⟩ : Shape).Idx → EReal)
    (W2 : (⟨2, ![2048, 8]⟩ : Shape).Idx → EReal) (B2 : (⟨2, ![1, 8]⟩ : Shape).Idx → EReal)
    (r : Fin R) (q : Fin 8) : EReal :=
  (∑ f : Fin 2048, hidden X C W1 B1 r f * W2 (ix2 f q)) + B2 (ix2 (0 : Fin 1) q)

/-- The whole [R, 8] result. -/
def rows {R : ℕ} (X : (⟨2, ![R, 8]⟩ : Shape).Idx → EReal) (C : (⟨2, ![1, 8]⟩ : Shape).Idx → EReal)
    (W1 : (⟨2, ![8, 2048]⟩ : Shape).Idx → EReal) (B1 : (⟨2, ![1, 2048]⟩ : Shape).Idx → EReal)
    (W2 : (⟨2, ![2048, 8]⟩ : Shape).Idx → EReal) (B2 : (⟨2, ![1, 8]⟩ : Shape).Idx → EReal) :
    (⟨2, ![R, 8]⟩ : Shape).Idx → EReal :=
  fun i => entry X C W1 B1 W2 B2 (i 0) (i 1)

/-- An entry depends on its own row of `X` only, and on the other operands through their entries: two forms whose
    operands agree entry by entry, at rows `r` and `r'` of two matrices that agree there, have the same entry. -/
theorem entry_congr {R R' : ℕ} (X : (⟨2, ![R, 8]⟩ : Shape).Idx → EReal) (X' : (⟨2, ![R', 8]⟩ : Shape).Idx → EReal)
    (C C' : (⟨2, ![1, 8]⟩ : Shape).Idx → EReal) (W1 W1' : (⟨2, ![8, 2048]⟩ : Shape).Idx → EReal)
    (B1 B1' : (⟨2, ![1, 2048]⟩ : Shape).Idx → EReal) (W2 W2' : (⟨2, ![2048, 8]⟩ : Shape).Idx → EReal)
    (B2 B2' : (⟨2, ![1, 8]⟩ : Shape).Idx → EReal) (r : Fin R) (r' : Fin R') (q : Fin 8)
    (hX : ∀ k : Fin 8, X (ix2 r k) = X' (ix2 r' k))
    (hC : ∀ k : Fin 8, C (ix2 (0 : Fin 1) k) = C' (ix2 (0 : Fin 1) k))
    (hW1 : ∀ (k : Fin 8) (f : Fin 2048), W1 (ix2 k f) = W1' (ix2 k f))
    (hB1 : ∀ f : Fin 2048, B1 (ix2 (0 : Fin 1) f) = B1' (ix2 (0 : Fin 1) f))
    (hW2 : ∀ (f : Fin 2048) (j : Fin 8), W2 (ix2 f j) = W2' (ix2 f j))
    (hB2 : ∀ j : Fin 8, B2 (ix2 (0 : Fin 1) j) = B2' (ix2 (0 : Fin 1) j)) :
    entry X C W1 B1 W2 B2 r q = entry X' C' W1' B1' W2' B2' r' q := by
  unfold entry hidden
  simp only [hX, hC, hW1, hB1, hW2, hB2]

/-- The same against the whole-array form: at an index `i` of the taller matrix whose row is the one `r` agrees with
    and whose column is `q`, the whole array holds the block's entry `(r, q)`. -/
theorem entry_eq_rows {R R' : ℕ} (X : (⟨2, ![R, 8]⟩ : Shape).Idx → EReal) (X' : (⟨2, ![R', 8]⟩ : Shape).Idx → EReal)
    (C C' : (⟨2, ![1, 8]⟩ : Shape).Idx → EReal) (W1 W1' : (⟨2, ![8, 2048]⟩ : Shape).Idx → EReal)
    (B1 B1' : (⟨2, ![1, 2048]⟩ : Shape).Idx → EReal) (W2 W2' : (⟨2, ![2048, 8]⟩ : Shape).Idx → EReal)
    (B2 B2' : (⟨2, ![1, 8]⟩ : Shape).Idx → EReal) (i : (⟨2, ![R', 8]⟩ : Shape).Idx) (r : Fin R) (q : Fin 8)
    (hq : (i 1).val = q.val)
    (hX : ∀ k : Fin 8, X (ix2 r k) = X' (ix2 (n0 := R') (i 0) k))
    (hC : ∀ k : Fin 8, C (ix2 (0 : Fin 1) k) = C' (ix2 (0 : Fin 1) k))
    (hW1 : ∀ (k : Fin 8) (f : Fin 2048), W1 (ix2 k f) = W1' (ix2 k f))
    (hB1 : ∀ f : Fin 2048, B1 (ix2 (0 : Fin 1) f) = B1' (ix2 (0 : Fin 1) f))
    (hW2 : ∀ (f : Fin 2048) (j : Fin 8), W2 (ix2 f j) = W2' (ix2 f j))
    (hB2 : ∀ j : Fin 8, B2 (ix2 (0 : Fin 1) j) = B2' (ix2 (0 : Fin 1) j)) :
    entry X C W1 B1 W2 B2 r q = rows X' C' W1' B1' W2' B2' i := by
  obtain rfl : q = i 1 := Fin.ext hq.symm
  exact entry_congr X X' C C' W1 W1' B1 B1' W2 W2' B2 B2' r (i 0) (i 1) hX hC hW1 hB1 hW2 hB2

/-- The function of the arguments as given, at row `(b, s)` and output `q`. -/
def out (x : (⟨3, ![16, 4096, 8]⟩ : Shape).Idx → EReal) (θ : (⟨1, ![8]⟩ : Shape).Idx → EReal)
    (w1 : (⟨2, ![2048, 8]⟩ : Shape).Idx → EReal) (b1 : (⟨1, ![2048]⟩ : Shape).Idx → EReal)
    (w2 : (⟨2, ![8, 2048]⟩ : Shape).Idx → EReal) (b2 : (⟨1, ![8]⟩ : Shape).Idx → EReal)
    (b : Fin 16) (s : Fin 4096) (q : Fin 8) : EReal :=
  (∑ f : Fin 2048,
      max ((∑ k : Fin 8, Ideal.cos (x (ix3 b s k)) * Ideal.cos (θ (ix1 k)) * w1 (ix2 f k)) + b1 (ix1 f))
        (Ideal.ofBits .f32 0x00000000#32) * w2 (ix2 q f))
    + b2 (ix1 q)

/-- The matrix form at a row that holds `x (b, s, ·)`, with the column factors the cosines of `θ`, the weights the
    transposes of `w1` and `w2` and the biases the one-row forms of `b1` and `b2`, is `out` at `(b, s)`. -/
theorem entry_eq_out {R : ℕ} (X : (⟨2, ![R, 8]⟩ : Shape).Idx → EReal) (C : (⟨2, ![1, 8]⟩ : Shape).Idx → EReal)
    (W1 : (⟨2, ![8, 2048]⟩ : Shape).Idx → EReal) (B1 : (⟨2, ![1, 2048]⟩ : Shape).Idx → EReal)
    (W2 : (⟨2, ![2048, 8]⟩ : Shape).Idx → EReal) (B2 : (⟨2, ![1, 8]⟩ : Shape).Idx → EReal)
    (x : (⟨3, ![16, 4096, 8]⟩ : Shape).Idx → EReal) (θ : (⟨1, ![8]⟩ : Shape).Idx → EReal)
    (w1 : (⟨2, ![2048, 8]⟩ : Shape).Idx → EReal) (b1 : (⟨1, ![2048]⟩ : Shape).Idx → EReal)
    (w2 : (⟨2, ![8, 2048]⟩ : Shape).Idx → EReal) (b2 : (⟨1, ![8]⟩ : Shape).Idx → EReal)
    (r : Fin R) (b : Fin 16) (s : Fin 4096) (q : Fin 8)
    (hX : ∀ k : Fin 8, X (ix2 r k) = x (ix3 b s k))
    (hC : ∀ k : Fin 8, C (ix2 (0 : Fin 1) k) = Ideal.cos (θ (ix1 k)))
    (hW1 : ∀ (k : Fin 8) (f : Fin 2048), W1 (ix2 k f) = w1 (ix2 f k))
    (hB1 : ∀ f : Fin 2048, B1 (ix2 (0 : Fin 1) f) = b1 (ix1 f))
    (hW2 : ∀ (f : Fin 2048) (j : Fin 8), W2 (ix2 f j) = w2 (ix2 j f))
    (hB2 : ∀ j : Fin 8, B2 (ix2 (0 : Fin 1) j) = b2 (ix1 j)) :
    entry X C W1 B1 W2 B2 r q = out x θ w1 b1 w2 b2 b s q := by
  unfold entry hidden out
  simp only [hX, hC, hW1, hB1, hW2, hB2]

end Cert.Perceptron

end
-- ==== Proof.Payload.lean ====
/-
  What the kernel body stores, read at one entry.

  The body holds a block of 2048 rows `x0`, the column factors `x1` ([1, 8]), the first layer's weights `x2` ([8, 2048])
  and bias `x3` ([1, 2048]), the second layer's weights `x4` ([2048, 8]) and bias `x5` ([1, 8]). It multiplies the
  cosines of the rows by the column factors, takes the [2048, 8] by [8, 2048] product into a zero accumulator, adds the
  bias row to every row, takes the maximum with zero, takes the [2048, 2048] by [2048, 8] product into a zero accumulator
  and adds the second bias row to every row.

  At entry `(r, q)` each matrix product is the sum over the contracted axis of the products of the operands' entries
  (rows against columns), a one-row operand spread over the rows reads its one row, and the elementwise operations act
  on the entries; the changes of shape in the body are to the same shape and change nothing. The result is entry
  `(r, q)` of the perceptron of the block, as the specification writes it.
-/
import proofs.«124010_j65481071404952_2_alg».proof.Proof.Gen.KernelIdeal.Skeleton
import proofs.«124010_j65481071404952_2_alg».proof.Proof.LibMatmul2D
import proofs.«124010_j65481071404952_2_alg».proof.Proof.Perceptron
import Idealize.ShloMosaic.Lib.ValueLayout
import Idealize.ShloMosaic.Lib.Pipeline.Value

noncomputable section

namespace Cert.KernelIdeal.Payload

open Cert.KernelIdeal Cert.KernelIdeal.Gen Idealize.ShloMosaic Idealize.ShloMosaic.ValueIdx

/-- The first product, [2048, 8] by [8, 2048] into zero: entry `(r, f)` is `∑ k, a (r, k) * w (k, f)`. -/
theorem first_dot (prec : Option ContractPrecision) (a : FVec Ideal S2048x8 .f32) (w : FVec Ideal S8x2048 .f32)
    (r : Fin 2048) (f : Fin 2048) :
    FloatOps.matmul dot_S2048x8_S8x2048_S2048x2048_1_0_0_1_n_n prec a w (constant S2048x2048 .f32 0x00000000#32) (ix2 r f)
      = ∑ k : Fin 8, a (ix2 r k) * w (ix2 k f) :=
  Cert.LibMatmul2D.rows_cols _ prec a w r f

/-- The second product, [2048, 2048] by [2048, 8] into zero: entry `(r, q)` is `∑ f, h (r, f) * w (f, q)`. -/
theorem second_dot (prec : Option ContractPrecision) (h : FVec Ideal S2048x2048 .f32) (w : FVec Ideal S2048x8 .f32)
    (r : Fin 2048) (q : Fin 8) :
    FloatOps.matmul dot_S2048x2048_S2048x8_S2048x8_1_0_0_1_n_n prec h w (constant S2048x8 .f32 0x00000000#32) (ix2 r q)
      = ∑ f : Fin 2048, h (ix2 r f) * w (ix2 f q) :=
  Cert.LibMatmul2D.rows_cols _ prec h w r q

/-- The cosine of an array, at an entry, is the cosine of the entry. -/
theorem cos_apply {s : Shape} {φ : FTy} (a : FVec Ideal s φ) (i : s.Idx) : cos a i = Ideal.cos (a i) := rfl

/-- The stored value at `(r, q)` is the perceptron's entry `(r, q)` of the body's six operands. -/
theorem pay_entry (x0 : Vec Ideal S2048x8 .f32) (x1 : Vec Ideal S1x8 .f32) (x2 : Vec Ideal S8x2048 .f32)
    (x3 : Vec Ideal S1x2048 .f32) (x4 : Vec Ideal S2048x8 .f32) (x5 : Vec Ideal S1x8 .f32) (r : Fin 2048) (q : Fin 8) :
    k0_pay1 (F := Ideal) x0 x1 x2 x3 x4 x5 (ix2 r q) = Cert.Perceptron.entry x0 x1 x2 x3 x4 x5 r q := by
  unfold k0_pay1
  simp only [addf_apply, second_dot, maximumf_apply, first_dot, mulf_apply, cos_apply, broadcast_apply, shapeCast_self,
    broadcastTo_1b_ab_apply]
  rfl

end Cert.KernelIdeal.Payload

end
-- ==== Proof.Region.lean ====
/-
  The region's output array after the run.

  The grid has 32 points. Point `t` holds rows `2048 t … 2048 t + 2047` of the [65536, 8] rows matrix and all of each
  other operand (their blocks are the whole arrays, at every point), and writes back rows `2048 t … 2048 t + 2047` of
  the output. What it writes is the perceptron of its block of rows; an entry of the perceptron depends on its own row
  only, so this is the block, at those rows, of the perceptron of the whole rows matrix (`whole`). The 32 blocks of
  2048 rows cover the 65536 rows — row `i` lies in block `i / 2048` — so the array ends holding `whole`.
-/
import proofs.«124010_j65481071404952_2_alg».proof.Proof.Gen.KernelIdeal.Frame
import proofs.«124010_j65481071404952_2_alg».proof.Proof.Payload
import proofs.«124010_j65481071404952_2_alg».proof.Proof.Perceptron
import Idealize.ShloMosaic.Lib.Pipeline.Value

set_option maxRecDepth 16384

noncomputable section

namespace Cert.KernelIdeal.Region

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem zero_offsets : (![0, 0] : Fin 2 → Nat) = fun _ => 0 := funext fun a => by fin_cases a <;> rfl

/-- The perceptron of the six arrays as the region finds them: what the output array ends holding. -/
def whole (c : Dev nD) : S65536x8.Idx → EReal :=
  Cert.Perceptron.rows (R := 65536) (V m c main_v0) (V m c main_v2) (V m c main_v3) (V m c main_v5) (V m c main_v4)
    (V m c main_v6)

/-- The block indices over the grid: the rows' block moves with the output's along axis 0; every other block index is
    zero. -/
theorem block_indices : ∀ t : Fin cfg0.N,
    win0_0.index t (0 : Fin 2) = win0_6.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 :=
  (by decide +kernel : ∀ t : Fin grid0.N, _)

/-- Every one of the 32 row blocks is some point's. -/
theorem block_onto : ∀ q0 : Fin 32, ∃ t : Fin cfg0.N, win0_6.index t = ![q0.val, 0] :=
  (by decide +kernel : ∀ q0 : Fin 32, ∃ t : Fin grid0.N, win0_6.index t = ![q0.val, 0])

/-- What point `t` writes back is block `t` of `whole`. -/
theorem flushed_eq (c : Dev nD) (t : Fin cfg0.N) :
    (dats m 0 c).flushed 6 t = ((cfg0.win 6).blk t).view.read (Elt Ideal) (whole m c) := by
  show (cfg0.win 6).cut (grid0.coords t) ((dats m 0 c).after 6 t) = _
  rw [after0_6]
  unfold out0_6
  rw [View.canon_unit_zero zero_offsets]
  simp only [View.ld_unit_zero (S := S2048x8) zero_offsets, View.ld_unit_zero (S := S1x8) zero_offsets,
    View.ld_unit_zero (S := S8x2048) zero_offsets, View.ld_unit_zero (S := S1x2048) zero_offsets]
  obtain ⟨e00, e01, e10, e11, e20, e21, e30, e31, e40, e41, e50, e51, e61⟩ := block_indices t
  funext j
  obtain ⟨r, q, rfl⟩ : ∃ (r : Fin 2048) (q : Fin 8), j = ix2 r q := ⟨j 0, j 1, eq_ix2 j⟩
  show k0_pay1 (iblk m c 0 t) (iblk m c 1 t) (iblk m c 2 t) (iblk m c 3 t) (iblk m c 4 t) (iblk m c 5 t) (ix2 r q)
    = whole m c (((cfg0.win 6).blk t).view.emb (ix2 r q))
  refine (Payload.pay_entry (iblk m c 0 t) (iblk m c 1 t) (iblk m c 2 t) (iblk m c 3 t) (iblk m c 4 t) (iblk m c 5 t)
    r q).trans ?_
  unfold whole
  refine Cert.Perceptron.entry_eq_rows (R := 2048) (R' := 65536) (iblk m c 0 t) (V m c main_v0) (iblk m c 1 t) (V m c main_v2)
    (iblk m c 2 t) (V m c main_v3) (iblk m c 3 t) (V m c main_v5) (iblk m c 4 t) (V m c main_v4) (iblk m c 5 t)
    (V m c main_v6) (((cfg0.win 6).blk t).view.emb (ix2 r q)) r q ?_ ?_ ?_ ?_ ?_ ?_ ?_
  · -- the output block spans all 8 columns: column `q` of the block is column `q` of the array
    show win0_6.index t (1 : Fin 2) * 8 + 1 * q.val = q.val
    omega
  · -- the rows' block at point `t` starts at the row where the output's block starts
    intro k
    show V m c main_v0 (((cfg0.win 0).blk t).view.emb (ix2 r k))
      = V m c main_v0 (ix2 (n0 := 65536) ((((cfg0.win 6).blk t).view.emb (ix2 r q)) 0) k)
    refine congrArg (V m c main_v0) (funext fun a => Fin.ext ?_)
    match a with
    | ⟨0, _⟩ =>
      show win0_0.index t (0 : Fin 2) * 2048 + 1 * r.val = win0_6.index t (0 : Fin 2) * 2048 + 1 * r.val
      omega
    | ⟨1, _⟩ =>
      show win0_0.index t (1 : Fin 2) * 8 + 1 * k.val = k.val
      omega
  · -- each other operand's block is its whole array
    intro k
    show V m c main_v2 (((cfg0.win 1).blk t).view.emb (ix2 (0 : Fin 1) k)) = V m c main_v2 (ix2 (0 : Fin 1) k)
    refine congrArg (V m c main_v2) (funext fun a => Fin.ext ?_)
    match a with
    | ⟨0, _⟩ =>
      show win0_1.index t (0 : Fin 2) * 1 + 1 * 0 = 0
      omega
    | ⟨1, _⟩ =>
      show win0_1.index t (1 : Fin 2) * 8 + 1 * k.val = k.val
      omega
  · intro k f
    show V m c main_v3 (((cfg0.win 2).blk t).view.emb (ix2 k f)) = V m c main_v3 (ix2 k f)
    refine congrArg (V m c main_v3) (funext fun a => Fin.ext ?_)
    match a with
    | ⟨0, _⟩ =>
      show win0_2.index t (0 : Fin 2) * 8 + 1 * k.val = k.val
      omega
    | ⟨1, _⟩ =>
      show win0_2.index t (1 : Fin 2) * 2048 + 1 * f.val = f.val
      omega
  · intro f
    show V m c main_v5 (((cfg0.win 3).blk t).view.emb (ix2 (0 : Fin 1) f)) = V m c main_v5 (ix2 (0 : Fin 1) f)
    refine congrArg (V m c main_v5) (funext fun a => Fin.ext ?_)
    match a with
    | ⟨0, _⟩ =>
      show win0_3.index t (0 : Fin 2) * 1 + 1 * 0 = 0
      omega
    | ⟨1, _⟩ =>
      show win0_3.index t (1 : Fin 2) * 2048 + 1 * f.val = f.val
      omega
  · intro f j
    show V m c main_v4 (((cfg0.win 4).blk t).view.emb (ix2 f j)) = V m c main_v4 (ix2 f j)
    refine congrArg (V m c main_v4) (funext fun a => Fin.ext ?_)
    match a with
    | ⟨0, _⟩ =>
      show win0_4.index t (0 : Fin 2) * 2048 + 1 * f.val = f.val
      omega
    | ⟨1, _⟩ =>
      show win0_4.index t (1 : Fin 2) * 8 + 1 * j.val = j.val
      omega
  · intro j
    show V m c main_v6 (((cfg0.win 5).blk t).view.emb (ix2 (0 : Fin 1) j)) = V m c main_v6 (ix2 (0 : Fin 1) j)
    refine congrArg (V m c main_v6) (funext fun a => Fin.ext ?_)
    match a with
    | ⟨0, _⟩ =>
      show win0_5.index t (0 : Fin 2) * 1 + 1 * 0 = 0
      omega
    | ⟨1, _⟩ =>
      show win0_5.index t (1 : Fin 2) * 8 + 1 * j.val = j.val
      omega

/-- An index of the output array is in point `t`'s block iff each coordinate is in the block's range on its axis. -/
theorem mem_block (t : Fin cfg0.N) (i : S65536x8.Idx) :
    i ∈ ((cfg0.win 6).blk t).view.set ↔ ∀ a : Fin 2, win0_6.index t a * S2048x8.size a ≤ (i a).val
      ∧ (i a).val < win0_6.index t a * S2048x8.size a + S2048x8.size a := by
  show i ∈ ((View.whole main_v7).slice (win0_6.rect t)).set ↔ _
  rw [View.set_slice_whole, Rect.mem_set_unit]
  exact Iff.rfl

/-- Every entry of the output array is in the block of the point whose block index is its row divided by 2048. -/
theorem cover (i : S65536x8.Idx) :
    ∃ t : Fin cfg0.N, (cfg0.win 6).flush t = true ∧ i ∈ ((cfg0.win 6).blk t).view.set := by
  have hi0 : (i 0).val < 65536 := (i 0).isLt
  have hi1 : (i 1).val < 8 := (i 1).isLt
  obtain ⟨t, ht⟩ := block_onto ⟨(i 0).val / 2048, by omega⟩
  have q0 : win0_6.index t (0 : Fin 2) = (i 0).val / 2048 := congrFun ht 0
  have q1 : win0_6.index t (1 : Fin 2) = 0 := congrFun ht 1
  refine ⟨t, flush0_6 t, ?_⟩
  rw [mem_block]
  intro a
  match a with
  | ⟨0, _⟩ =>
    show win0_6.index t (0 : Fin 2) * 2048 ≤ (i 0).val ∧ (i 0).val < win0_6.index t (0 : Fin 2) * 2048 + 2048
    omega
  | ⟨1, _⟩ =>
    show win0_6.index t (1 : Fin 2) * 8 ≤ (i 1).val ∧ (i 1).val < win0_6.index t (1 : Fin 2) * 8 + 8
    omega

/-- The output array after the run is `whole`. -/
theorem final (c : Dev nD) : (dats m 0 c).arrAt 6 cfg0.N = whole m c :=
  (dats m 0 c).arrAt_eq_of_cover 6 (whole m c) (fun t _ => flushed_eq m c t) cover

end Cert.KernelIdeal.Region

end
-- ==== Proof.Arrays.lean ====
/-
  The arrays around the kernel's one region, read at an entry.

  Before the region the program re-lays its arguments: `x` ([16, 4096, 8]) becomes the [65536, 8] matrix whose row
  `b * 4096 + s` is `x (b, s, ·)` (the same elements in the same row-major order); the cosines of `θ` become a
  one-row matrix; `w1` and `w2` are transposed; `b1` and `b2` become one-row matrices. After the region the
  [65536, 8] result is re-laid as [16, 4096, 8], again in row-major order: entry `(b, s, q)` is the matrix's entry
  `(b * 4096 + s, q)`.
-/
import proofs.«124010_j65481071404952_2_alg».proof.Proof.Gen.KernelIdeal.Frame
import Idealize.ShloMosaic.Lib.Pipeline.Value
import Idealize.ShloMosaic.Lib.ValueLayout
import Idealize.ShloMosaic.Lib.StableHlo.Run

noncomputable section

namespace Cert.KernelIdeal.Arrays

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- Row `b * 4096 + s` of the [65536, 8] matrix. -/
abbrev row (b : Fin 16) (s : Fin 4096) : Fin 65536 := ⟨b.val * 4096 + s.val, by have := b.isLt; have := s.isLt; omega⟩

/-! ## Before the region -/

theorem V_v0 (c : Dev nD) : (V m c main_v0 : S65536x8.Idx → EReal)
    = shapeCast S65536x8 (m ((c : Thread nD τ).loc main_arg0)) shapeCasts_S16x4096x8_S65536x8 := by
  show StableHlo.after hostOps0 (fun b => m (c, b)) (Proc.devRef .tc main_v0) = _
  after_results
  rfl

/-- The rows matrix at `(b * 4096 + s, k)` is `x (b, s, k)`. -/
theorem V_v0_apply (c : Dev nD) (b : Fin 16) (s : Fin 4096) (k : Fin 8) :
    (V m c main_v0 : S65536x8.Idx → EReal) (ix2 (row b s) k) = m ((c : Thread nD τ).loc main_arg0) (ix3 b s k) := by
  rw [V_v0]
  refine shapeCast_apply _ _ _ _ ?_
  show (S16x4096x8.rowMajor (ix3 b s k)).val = (S65536x8.rowMajor (ix2 (row b s) k)).val
  rw [Shape.rowMajor_val_three, Shape.rowMajor_val_two]
  rfl

theorem V_v2 (c : Dev nD) : (V m c main_v2 : S1x8.Idx → EReal)
    = shapeCast S1x8 (Host.cos (F := Ideal) (s := S8) (φ := .f32) (m ((c : Thread nD τ).loc main_arg1))) shapeCasts_S8_S1x8 := by
  show StableHlo.after hostOps0 (fun b => m (c, b)) (Proc.devRef .tc main_v2) = _
  after_results
  rfl

/-- The column factors at `(0, k)` are `cos θ k`. -/
theorem V_v2_apply (c : Dev nD) (k : Fin 8) :
    (V m c main_v2 : S1x8.Idx → EReal) (ix2 (0 : Fin 1) k) = Ideal.cos (m ((c : Thread nD τ).loc main_arg1) (ix1 k)) := by
  rw [V_v2]
  exact shapeCast_a_1a_apply _ _ 0 k

theorem V_v3 (c : Dev nD) : (V m c main_v3 : S8x2048.Idx → EReal)
    = transpose S8x2048 [1, 0] (m ((c : Thread nD τ).loc main_arg2)) transposes_S2048x8_S8x2048_1_0 := by
  show StableHlo.after hostOps0 (fun b => m (c, b)) (Proc.devRef .tc main_v3) = _
  after_results

/-- The first layer's weights at `(k, f)` are `w1 (f, k)`. -/
theorem V_v3_apply (c : Dev nD) (k : Fin 8) (f : Fin 2048) :
    (V m c main_v3 : S8x2048.Idx → EReal) (ix2 k f) = m ((c : Thread nD τ).loc main_arg2) (ix2 f k) := by
  rw [V_v3]
  exact transpose_ix2_apply _ _ k f

theorem V_v4 (c : Dev nD) : (V m c main_v4 : S2048x8.Idx → EReal)
    = transpose S2048x8 [1, 0] (m ((c : Thread nD τ).loc main_arg4)) transposes_S8x2048_S2048x8_1_0 := by
  show StableHlo.after hostOps0 (fun b => m (c, b)) (Proc.devRef .tc main_v4) = _
  after_results

/-- The second layer's weights at `(f, j)` are `w2 (j, f)`. -/
theorem V_v4_apply (c : Dev nD) (f : Fin 2048) (j : Fin 8) :
    (V m c main_v4 : S2048x8.Idx → EReal) (ix2 f j) = m ((c : Thread nD τ).loc main_arg4) (ix2 j f) := by
  rw [V_v4]
  exact transpose_ix2_apply _ _ f j

theorem V_v5 (c : Dev nD) : (V m c main_v5 : S1x2048.Idx → EReal)
    = shapeCast S1x2048 (m ((c : Thread nD τ).loc main_arg3)) shapeCasts_S2048_S1x2048 := by
  show StableHlo.after hostOps0 (fun b => m (c, b)) (Proc.devRef .tc main_v5) = _
  after_results
  rfl

/-- The first bias row at `(0, f)` is `b1 f`. -/
theorem V_v5_apply (c : Dev nD) (f : Fin 2048) :
    (V m c main_v5 : S1x2048.Idx → EReal) (ix2 (0 : Fin 1) f) = m ((c : Thread nD τ).loc main_arg3) (ix1 f) := by
  rw [V_v5]
  exact shapeCast_a_1a_apply _ _ 0 f

theorem V_v6 (c : Dev nD) : (V m c main_v6 : S1x8.Idx → EReal)
    = shapeCast S1x8 (m ((c : Thread nD τ).loc main_arg5)) shapeCasts_S8_S1x8 := by
  show StableHlo.after hostOps0 (fun b => m (c, b)) (Proc.devRef .tc main_v6) = _
  after_results
  rfl

/-- The second bias row at `(0, j)` is `b2 j`. -/
theorem V_v6_apply (c : Dev nD) (j : Fin 8) :
    (V m c main_v6 : S1x8.Idx → EReal) (ix2 (0 : Fin 1) j) = m ((c : Thread nD τ).loc main_arg5) (ix1 j) := by
  rw [V_v6]
  exact shapeCast_a_1a_apply _ _ 0 j

/-! ## After the region -/

/-- The program's result is the region's output array re-laid as [16, 4096, 8]. -/
theorem tail (c : Dev nD) : (Pipeline.afterTail₀ cfgs (dats m) 0 (V0 m) [hostOps1] c main_v8 : S16x4096x8.Idx → EReal)
    = shapeCast S16x4096x8 ((dats m 0 c).arrAt 6 cfg0.N) shapeCasts_S65536x8_S16x4096x8 := by
  unfold Pipeline.afterTail₀
  show StableHlo.after hostOps1 _ (Proc.devRef .tc main_v8) = _
  after_results
  have e := Pipeline.withArrays_arr spec0 launch0.win.arr_inj c (V0 m c) (fun w => (dats m 0 c).arrAt w cfg0.N) 6
  funext i
  show shapeCast S16x4096x8 (Pipeline.withArrays spec0 c (V0 m c) (fun w => (dats m 0 c).arrAt w cfg0.N)
    (Proc.devRef .tc main_v7)) shapeCasts_S65536x8_S16x4096x8 i = _
  rw [show Pipeline.withArrays spec0 c (V0 m c) (fun w => (dats m 0 c).arrAt w cfg0.N) (Proc.devRef .tc main_v7)
    = (dats m 0 c).arrAt 6 cfg0.N from e]

/-- Its entry `(b, s, q)` is the output array's entry `(b * 4096 + s, q)`. -/
theorem tail_apply (c : Dev nD) (b : Fin 16) (s : Fin 4096) (q : Fin 8) :
    (Pipeline.afterTail₀ cfgs (dats m) 0 (V0 m) [hostOps1] c main_v8 : S16x4096x8.Idx → EReal) (ix3 b s q)
      = ((dats m 0 c).arrAt 6 cfg0.N : S65536x8.Idx → EReal) (ix2 (row b s) q) := by
  rw [tail]
  refine shapeCast_apply _ _ _ _ ?_
  show (S65536x8.rowMajor (ix2 (row b s) q)).val = (S16x4096x8.rowMajor (ix3 b s q)).val
  rw [Shape.rowMajor_val_two, Shape.rowMajor_val_three]
  rfl

end Cert.KernelIdeal.Arrays

end
-- ==== Proof.KernelValue.lean ====
/-
  The idealized kernel's result as a function of its arguments.

  The program's result is the region's output array re-laid as [16, 4096, 8]: entry `(b, s, q)` is the output array's
  entry `(b * 4096 + s, q)`. The output array is the perceptron of the arrays the region finds, and those are the
  arguments re-laid: row `b * 4096 + s` of the rows matrix is `x (b, s, ·)`, the column factors are the cosines of
  `θ`, the weights are the transposes of `w1` and `w2`, the bias rows are `b1` and `b2`. So entry `(b, s, q)` of the
  result is `out` of the arguments there. The run itself (termination, no fault, the arguments unchanged) is the
  generated frame run; only its post is restated.
-/
import proofs.«124010_j65481071404952_2_alg».proof.Proof.Region
import proofs.«124010_j65481071404952_2_alg».proof.Proof.Arrays

noncomputable section

namespace Cert.KernelIdeal.KernelValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- `out` of the arguments as launched on core `c`, as an array. -/
def result (c : Dev nD) : S16x4096x8.Idx → EReal := fun i =>
  Cert.Perceptron.out (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (i 0) (i 1) (i 2)

/-- The program's result buffer after the lines that follow the region holds `result`. -/
theorem tail_eq_result (c : Dev nD) :
    (Pipeline.afterTail₀ cfgs (dats m) 0 (V0 m) [hostOps1] c main_v8 : S16x4096x8.Idx → EReal) = result m c := by
  funext i
  obtain ⟨b, s, q, rfl⟩ : ∃ (b : Fin 16) (s : Fin 4096) (q : Fin 8), i = ix3 b s q := ⟨i 0, i 1, i 2, eq_ix3 i⟩
  rw [Arrays.tail_apply, Region.final]
  exact Cert.Perceptron.entry_eq_out (R := 65536) (V m c main_v0) (V m c main_v2) (V m c main_v3) (V m c main_v5)
    (V m c main_v4) (V m c main_v6) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (Arrays.row b s) b s q
    (Arrays.V_v0_apply m c b s) (Arrays.V_v2_apply m c) (Arrays.V_v3_apply m c) (Arrays.V_v5_apply m c)
    (Arrays.V_v4_apply m c) (Arrays.V_v6_apply m c)

/-- Every weakly fair execution of the idealized kernel's program terminates without a fault, with the result buffer at
    `result` and the arguments as launched. -/
theorem run : θ_run defs (onTc (τ := τ) (main (F := Ideal))) ⟨m, fun _ => 0, ρ⟩ (fun r => ∀ c : Dev nD,
      r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v8 (Pipeline.mem_restRefs_of main_v8 (by decide) (by decide))).trans (tail_eq_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.KernelValue

end
-- ==== Proof.Reference.lean ====
/-
  The reference program's result, read at one entry.

  The reference takes the cosines of `x` ([16, 4096, 8]) and of `θ` ([8]), multiplies them along the last axis,
  contracts the last axis against the last axis of `w1` ([2048, 8]), adds `b1` along the last axis, takes the maximum
  with zero, contracts the last axis against the last axis of `w2` ([8, 2048]) and adds `b2` along the last axis.

  Reading its stages at `(b, s, q)`, outermost first: the last sum is over the 2048 hidden units `f`, of the hidden
  value at `(b, s, f)` times `w2 (q, f)`; the hidden value is the maximum with zero of the sum over the eight inputs
  `k` of `cos x (b, s, k) * cos θ k * w1 (f, k)`, plus `b1 f`. Each spread of a vector along leading axes reads the
  vector at the last coordinate. That is the specification's `out`, term for term.
-/
import proofs.«124010_j65481071404952_2_alg».proof.Proof.Gen.ReferenceIdeal.Read
import proofs.«124010_j65481071404952_2_alg».proof.Proof.Perceptron

noncomputable section

namespace Cert.ReferenceIdeal.RefValue

open Cert.ReferenceIdeal Cert.ReferenceIdeal.Gen Cert.ReferenceIdeal.Read Idealize.ShloMosaic Idealize.ShloMosaic.ValueIdx

/-! The operand indices of each stage at `(b, s, ·)`, as indices built from coordinates. -/

/-- The second contraction reads the hidden array at `(b, s, f)` … -/
theorem l10 (b : Fin 16) (s : Fin 4096) (q : Fin 8) (f : Fin 2048) : lidx_main_v10 (ix3 b s q) f = ix3 b s f :=
  funext fun a => by match a with | ⟨0, _⟩ => rfl | ⟨1, _⟩ => rfl | ⟨2, _⟩ => rfl
/-- … and the second layer's weights at `(q, f)`. -/
theorem r10 (b : Fin 16) (s : Fin 4096) (q : Fin 8) (f : Fin 2048) : ridx_main_v10 (ix3 b s q) f = ix2 q f :=
  funext fun a => by match a with | ⟨0, _⟩ => rfl | ⟨1, _⟩ => rfl
/-- The first contraction reads the encoded inputs at `(b, s, k)` … -/
theorem l5 (b : Fin 16) (s : Fin 4096) (f : Fin 2048) (k : Fin 8) : lidx_main_v5 (ix3 b s f) k = ix3 b s k :=
  funext fun a => by match a with | ⟨0, _⟩ => rfl | ⟨1, _⟩ => rfl | ⟨2, _⟩ => rfl
/-- … and the first layer's weights at `(f, k)`. -/
theorem r5 (b : Fin 16) (s : Fin 4096) (f : Fin 2048) (k : Fin 8) : ridx_main_v5 (ix3 b s f) k = ix2 f k :=
  funext fun a => by match a with | ⟨0, _⟩ => rfl | ⟨1, _⟩ => rfl
/-- The cosines of the angles, spread over the rows, are read at `k`. -/
theorem c3 (b : Fin 16) (s : Fin 4096) (k : Fin 8) : idx_main_v2 (idx_main_v3 (ix3 b s k)) = ix1 k :=
  funext fun a => by match a with | ⟨0, _⟩ => rfl
/-- The first bias, spread over the rows, is read at `f`. -/
theorem c7 (b : Fin 16) (s : Fin 4096) (f : Fin 2048) : idx_main_v6 (idx_main_v7 (ix3 b s f)) = ix1 f :=
  funext fun a => by match a with | ⟨0, _⟩ => rfl
/-- The second bias, spread over the rows, is read at `q`. -/
theorem c12 (b : Fin 16) (s : Fin 4096) (q : Fin 8) : idx_main_v11 (idx_main_v12 (ix3 b s q)) = ix1 q :=
  funext fun a => by match a with | ⟨0, _⟩ => rfl

/-- The reference's last stage at `(b, s, q)` is `out` there. -/
theorem stage_eq_out (x0 : (⟨S16x4096x8, .f32⟩ : BufTy).Contents (Elt Ideal)) (x1 : (⟨S8, .f32⟩ : BufTy).Contents (Elt Ideal))
    (x2 : (⟨S2048x8, .f32⟩ : BufTy).Contents (Elt Ideal)) (x3 : (⟨S2048, .f32⟩ : BufTy).Contents (Elt Ideal))
    (x4 : (⟨S8x2048, .f32⟩ : BufTy).Contents (Elt Ideal)) (x5 : (⟨S8, .f32⟩ : BufTy).Contents (Elt Ideal))
    (b : Fin 16) (s : Fin 4096) (q : Fin 8) :
    val_main_v13 (F := Ideal) x0 x1 x2 x3 x4 x5 (ix3 b s q) = Cert.Perceptron.out x0 x1 x2 x3 x4 x5 b s q := by
  rw [val_main_v13_apply, val_main_v10_apply, val_main_v12_apply, val_main_v11_apply, c12]
  simp only [l10, r10, val_main_v9_apply, val_main_v8_apply, val_main_v5_apply, l5, r5, val_main_v4_apply, val_main_v0_apply,
    val_main_v3_apply, val_main_v2_apply, val_main_v1_apply, c3, val_main_v7_apply, val_main_v6_apply, c7,
    val_main_call0_v0_apply, val_main_call0_cst_apply]
  rfl

/-- The same as an equation of arrays. -/
theorem stage_eq (x0 : (⟨S16x4096x8, .f32⟩ : BufTy).Contents (Elt Ideal)) (x1 : (⟨S8, .f32⟩ : BufTy).Contents (Elt Ideal))
    (x2 : (⟨S2048x8, .f32⟩ : BufTy).Contents (Elt Ideal)) (x3 : (⟨S2048, .f32⟩ : BufTy).Contents (Elt Ideal))
    (x4 : (⟨S8x2048, .f32⟩ : BufTy).Contents (Elt Ideal)) (x5 : (⟨S8, .f32⟩ : BufTy).Contents (Elt Ideal)) :
    val_main_v13 (F := Ideal) x0 x1 x2 x3 x4 x5 = fun i => Cert.Perceptron.out x0 x1 x2 x3 x4 x5 (i 0) (i 1) (i 2) := by
  funext i
  obtain ⟨b, s, q, rfl⟩ : ∃ (b : Fin 16) (s : Fin 4096) (q : Fin 8), i = ix3 b s q := ⟨i 0, i 1, i 2, eq_ix3 i⟩
  exact stage_eq_out x0 x1 x2 x3 x4 x5 b s q

end Cert.ReferenceIdeal.RefValue

end
-- ==== Proof.lean ====
/-
  The kernel and its reference compute one function.

  Both programs take `x` ([16, 4096, 8]), angles `θ` ([8]), first-layer weights `w1` ([2048, 8]) and bias `b1` ([2048]),
  second-layer weights `w2` ([8, 2048]) and bias `b2` ([8]), and return, at `(b, s, q)`,
      ∑ f, max (∑ k, cos x (b, s, k) * cos θ k * w1 (f, k) + b1 f) 0 * w2 (q, f) + b2 q.
  The reference computes this on the whole arrays. The kernel's program re-lays `x` as 65536 rows of 8, takes the
  cosines of `θ` once, transposes the weights, and runs the body on 32 blocks of 2048 rows; each block's result depends
  on its own rows only, the blocks cover the rows, and the result is re-laid as [16, 4096, 8].

  On the extended reals the two are the same sums of the same products in the same order, so no law of arithmetic and
  no finiteness of the inputs is needed: the in-kernel cosine and the host's are one function there, a matrix product
  into a zero accumulator is the sum over the contracted axis on both sides, and a change of layout moves no value.

  The three frame claims are the generated frames (the reference's is its generated run with the result dropped); the
  idealization rewrote nothing, so what it must preserve is trivially true; the value claim puts the kernel's run
  (Proof/KernelValue.lean) beside the reference's generated run read stage by stage (Proof/Reference.lean), both at the
  function `Cert.Perceptron.out` of the arguments.
-/
import proofs.«124010_j65481071404952_2_alg».proof.Defs
import proofs.«124010_j65481071404952_2_alg».proof.Proof.Gen.Kernel
import proofs.«124010_j65481071404952_2_alg».proof.Proof.Gen.Kernel.Skeleton
import proofs.«124010_j65481071404952_2_alg».proof.Proof.Gen.Kernel.Launch
import proofs.«124010_j65481071404952_2_alg».proof.Proof.Gen.Kernel.Points
import proofs.«124010_j65481071404952_2_alg».proof.Proof.Gen.Kernel.Frame
import proofs.«124010_j65481071404952_2_alg».proof.Proof.Gen.KernelIdeal
import proofs.«124010_j65481071404952_2_alg».proof.Proof.Gen.KernelIdeal.Skeleton
import proofs.«124010_j65481071404952_2_alg».proof.Proof.Gen.KernelIdeal.Launch
import proofs.«124010_j65481071404952_2_alg».proof.Proof.Gen.KernelIdeal.Points
import proofs.«124010_j65481071404952_2_alg».proof.Proof.Gen.KernelIdeal.Frame
import proofs.«124010_j65481071404952_2_alg».proof.Proof.Gen.ReferenceIdeal
import proofs.«124010_j65481071404952_2_alg».proof.Proof.Gen.ReferenceIdeal.Run
import proofs.«124010_j65481071404952_2_alg».proof.Proof.Gen.ReferenceIdeal.Read
import proofs.«124010_j65481071404952_2_alg».proof.Proof.Gen.Pre_finite_inputs
import proofs.«124010_j65481071404952_2_alg».proof.Proof.KernelValue
import proofs.«124010_j65481071404952_2_alg».proof.Proof.Reference
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the result buffer at `out` of the arguments. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.RefValue.stage_eq _ _ _ _ _ _).trans ?_
  obtain ⟨h0, h1, h2, h3, h4, h5⟩ := hagree c
  rw [h0, h1, h2, h3, h4, h5]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
